-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x32x64 : Shape := ⟨4, ![4, 32, 32, 64]⟩
abbrev S576x64 : Shape := ⟨2, ![576, 64]⟩
abbrev S_ : Shape := ⟨0, ![]⟩

class Facts : Prop where
  bcast_S_S4x32x32x64 : S_.BroadcastsInDim S4x32x32x64 (![] : Fin 0 → Fin S4x32x32x64.rank)
  reducesTo_S4x32x32x64_S_d0_1_2_3 : S4x32x32x64.ReducesTo [0, 1, 2, 3] S_
  h_S_ : 0 < S_.numel
  bcast_S_S576x64 : S_.BroadcastsInDim S576x64 (![] : Fin 0 → Fin S576x64.rank)
  reducesTo_S576x64_S_d0_1 : S576x64.ReducesTo [0, 1] S_

variable [Facts]

def fn {F : FTy → Type} [FloatOps F] (main_arg0 : FVec F S4x32x32x64 .f32) (main_arg1 : FVec F S576x64 .f32) : IVec S_ 1 :=
  let main_v0 : FVec F S4x32x32x64 .f32 := Host.absf main_arg0
  let main_cst : FVec F S_ .f32 := constant S_ .f32 0x7F800000#32
  let main_v1 : FVec F S4x32x32x64 .f32 := broadcastInDim S4x32x32x64 ![] bcast_S_S4x32x32x64 main_cst
  let main_v2 : IVec S4x32x32x64 1 := cmpf .olt main_v0 main_v1
  let main_c : IVec S_ 1 := constantI S_ 1 1#1
  let main_v3 : IVec S_ 1 := (fun x v => Host.reduce IntOp.andi x v reducesTo_S4x32x32x64_S_d0_1_2_3 h_S_) main_v2 main_c
  let main_v4 : FVec F S576x64 .f32 := Host.absf main_arg1
  let main_cst_0 : FVec F S_ .f32 := constant S_ .f32 0x7F800000#32
  let main_v5 : FVec F S576x64 .f32 := broadcastInDim S576x64 ![] bcast_S_S576x64 main_cst_0
  let main_v6 : IVec S576x64 1 := cmpf .olt main_v4 main_v5
  let main_c_1 : IVec S_ 1 := constantI S_ 1 1#1
  let main_v7 : IVec S_ 1 := (fun x v => Host.reduce IntOp.andi x v reducesTo_S576x64_S_d0_1 h_S_) main_v6 main_c_1
  let main_v8 : IVec S_ 1 := andi main_v3 main_v7
  main_v8
-- ==== Kernel.lean ====
abbrev S4x32x32x64 : Shape := ⟨4, ![4, 32, 32, 64]⟩
abbrev S576x64 : Shape := ⟨2, ![576, 64]⟩
abbrev S4x30x30x64 : Shape := ⟨4, ![4, 30, 30, 64]⟩
abbrev S4x30x30x1x64 : Shape := ⟨5, ![4, 30, 30, 1, 64]⟩
abbrev S4x30x30x9x64 : Shape := ⟨5, ![4, 30, 30, 9, 64]⟩
abbrev S4x30x30x576 : Shape := ⟨4, ![4, 30, 30, 576]⟩
abbrev S3600x576 : Shape := ⟨2, ![3600, 576]⟩
abbrev S64x576 : Shape := ⟨2, ![64, 576]⟩
abbrev S3600x64 : Shape := ⟨2, ![3600, 64]⟩
abbrev S240x576 : Shape := ⟨2, ![240, 576]⟩
abbrev S240x64 : Shape := ⟨2, ![240, 64]⟩
abbrev S64x64 : Shape := ⟨2, ![64, 64]⟩
abbrev S240x1x64 : Shape := ⟨3, ![240, 1, 64]⟩
abbrev S1x64x64 : Shape := ⟨3, ![1, 64, 64]⟩
abbrev S240x64x64 : Shape := ⟨3, ![240, 64, 64]⟩

abbrev nBuf : Space → Nat
  | .hbm => 26
  | .vmem => 5
  | .smem => 0
  | _ => 0

abbrev bufTy : (tb : Table) → Fin (tcTables nBuf tb) → BufTy
  | .hbm, ⟨0, _⟩ => ⟨S4x32x32x64, .f32⟩
  | .hbm, ⟨1, _⟩ => ⟨S576x64, .f32⟩
  | .hbm, ⟨2, _⟩ => ⟨S4x30x30x64, .f32⟩
  | .hbm, ⟨3, _⟩ => ⟨S4x30x30x64, .f32⟩
  | .hbm, ⟨4, _⟩ => ⟨S4x30x30x64, .f32⟩
  | .hbm, ⟨5, _⟩ => ⟨S4x30x30x64, .f32⟩
  | .hbm, ⟨6, _⟩ => ⟨S4x30x30x64, .f32⟩
  | .hbm, ⟨7, _⟩ => ⟨S4x30x30x64, .f32⟩
  | .hbm, ⟨8, _⟩ => ⟨S4x30x30x64, .f32⟩
  | .hbm, ⟨9, _⟩ => ⟨S4x30x30x64, .f32⟩
  | .hbm, ⟨10, _⟩ => ⟨S4x30x30x64, .f32⟩
  | .hbm, ⟨11, _⟩ => ⟨S4x30x30x1x64, .f32⟩
  | .hbm, ⟨12, _⟩ => ⟨S4x30x30x1x64, .f32⟩
  | .hbm, ⟨13, _⟩ => ⟨S4x30x30x1x64, .f32⟩
  | .hbm, ⟨14, _⟩ => ⟨S4x30x30x1x64, .f32⟩
  | .hbm, ⟨15, _⟩ => ⟨S4x30x30x1x64, .f32⟩
  | .hbm, ⟨16, _⟩ => ⟨S4x30x30x1x64, .f32⟩
  | .hbm, ⟨17, _⟩ => ⟨S4x30x30x1x64, .f32⟩
  | .hbm, ⟨18, _⟩ => ⟨S4x30x30x1x64, .f32⟩
  | .hbm, ⟨19, _⟩ => ⟨S4x30x30x1x64, .f32⟩
  | .hbm, ⟨20, _⟩ => ⟨S4x30x30x9x64, .f32⟩
  | .hbm, ⟨21, _⟩ => ⟨S4x30x30x576, .f32⟩
  | .hbm, ⟨22, _⟩ => ⟨S3600x576, .f32⟩
  | .hbm, ⟨23, _⟩ => ⟨S64x576, .f32⟩
  | .hbm, ⟨24, _⟩ => ⟨S3600x64, .f32⟩
  | .hbm, ⟨25, _⟩ => ⟨S4x30x30x64, .f32⟩
  | .local _ .vmem, ⟨0, _⟩ => ⟨S240x576, .f32⟩
  | .local _ .vmem, ⟨1, _⟩ => ⟨S240x576, .f32⟩
  | .local _ .vmem, ⟨2, _⟩ => ⟨S64x576, .f32⟩
  | .local _ .vmem, ⟨3, _⟩ => ⟨S240x64, .f32⟩
  | .local _ .vmem, ⟨4, _⟩ => ⟨S240x64, .f32⟩
  | _, _ => ⟨S4x32x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S240x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S240x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S4x32x32x64_S4x30x30x64_0_0_0_0 : S4x32x32x64.Slices ![0, 0, 0, 0] S4x30x30x64
  slices_S4x32x32x64_S4x30x30x64_0_0_1_0 : S4x32x32x64.Slices ![0, 0, 1, 0] S4x30x30x64
  slices_S4x32x32x64_S4x30x30x64_0_0_2_0 : S4x32x32x64.Slices ![0, 0, 2, 0] S4x30x30x64
  slices_S4x32x32x64_S4x30x30x64_0_1_0_0 : S4x32x32x64.Slices ![0, 1, 0, 0] S4x30x30x64
  slices_S4x32x32x64_S4x30x30x64_0_1_1_0 : S4x32x32x64.Slices ![0, 1, 1, 0] S4x30x30x64
  slices_S4x32x32x64_S4x30x30x64_0_1_2_0 : S4x32x32x64.Slices ![0, 1, 2, 0] S4x30x30x64
  slices_S4x32x32x64_S4x30x30x64_0_2_0_0 : S4x32x32x64.Slices ![0, 2, 0, 0] S4x30x30x64
  slices_S4x32x32x64_S4x30x30x64_0_2_1_0 : S4x32x32x64.Slices ![0, 2, 1, 0] S4x30x30x64
  slices_S4x32x32x64_S4x30x30x64_0_2_2_0 : S4x32x32x64.Slices ![0, 2, 2, 0] S4x30x30x64
  bcast_S4x30x30x64_S4x30x30x1x64_0_1_2_4 : S4x30x30x64.BroadcastsInDim S4x30x30x1x64 (![0, 1, 2, 4] : Fin 4 → Fin S4x30x30x1x64.rank)
  concatenates_S4x30x30x1x64_S4x30x30x1x64_S4x30x30x1x64_S4x30x30x1x64_S4x30x30x1x64_S4x30x30x1x64_S4x30x30x1x64_S4x30x30x1x64_S4x30x30x1x64_S4x30x30x9x64_d3 : Shape.Concatenates [S4x30x30x1x64, S4x30x30x1x64, S4x30x30x1x64, S4x30x30x1x64, S4x30x30x1x64, S4x30x30x1x64, S4x30x30x1x64, S4x30x30x1x64, S4x30x30x1x64] S4x30x30x9x64 3
  shapeCasts_S4x30x30x9x64_S4x30x30x576 : S4x30x30x9x64.ShapeCasts S4x30x30x576
  shapeCasts_S4x30x30x576_S3600x576 : S4x30x30x576.ShapeCasts S3600x576
  transposes_S576x64_S64x576_1_0 : S576x64.Transposes [1, 0] S64x576
  inb_S240x576_S240x576_0_0 : ∀ a, (![0, 0] : Fin 2 → Nat) a + S240x576.size a ≤ S240x576.size a
  h_S240x576 : 0 < S240x576.numel
  shapeCasts_S240x576_S240x576 : S240x576.ShapeCasts S240x576
  inb_S64x576_S64x576_0_0 : ∀ a, (![0, 0] : Fin 2 → Nat) a + S64x576.size a ≤ S64x576.size a
  h_S64x576 : 0 < S64x576.numel
  shapeCasts_S64x576_S64x576 : S64x576.ShapeCasts S64x576
  slices_S240x576_o0_0_S240x64 : S240x576.Slices ![0, 0] S240x64
  slices_S64x576_o0_0_S64x64 : S64x576.Slices ![0, 0] S64x64
  shapeCasts_S240x64_S240x1x64 : S240x64.ShapeCasts S240x1x64
  shapeCasts_S64x64_S1x64x64 : S64x64.ShapeCasts S1x64x64
  broadcasts_S240x1x64_S240x64x64 : S240x1x64.Broadcasts S240x64x64
  broadcasts_S1x64x64_S240x64x64 : S1x64x64.Broadcasts S240x64x64
  reduces_S240x64x64_S240x64 : S240x64x64.Reduces [2] S240x64
  slices_S240x576_o0_64_S240x64 : S240x576.Slices ![0, 64] S240x64
  slices_S64x576_o0_64_S64x64 : S64x576.Slices ![0, 64] S64x64
  slices_S240x576_o0_128_S240x64 : S240x576.Slices ![0, 128] S240x64
  slices_S64x576_o0_128_S64x64 : S64x576.Slices ![0, 128] S64x64
  slices_S240x576_o0_192_S240x64 : S240x576.Slices ![0, 192] S240x64
  slices_S64x576_o0_192_S64x64 : S64x576.Slices ![0, 192] S64x64
  slices_S240x576_o0_256_S240x64 : S240x576.Slices ![0, 256] S240x64
  slices_S64x576_o0_256_S64x64 : S64x576.Slices ![0, 256] S64x64
  slices_S240x576_o0_320_S240x64 : S240x576.Slices ![0, 320] S240x64
  slices_S64x576_o0_320_S64x64 : S64x576.Slices ![0, 320] S64x64
  slices_S240x576_o0_384_S240x64 : S240x576.Slices ![0, 384] S240x64
  slices_S64x576_o0_384_S64x64 : S64x576.Slices ![0, 384] S64x64
  slices_S240x576_o0_448_S240x64 : S240x576.Slices ![0, 448] S240x64
  slices_S64x576_o0_448_S64x64 : S64x576.Slices ![0, 448] S64x64
  slices_S240x576_o0_512_S240x64 : S240x576.Slices ![0, 512] S240x64
  slices_S64x576_o0_512_S64x64 : S64x576.Slices ![0, 512] S64x64
  inb_S240x64_S240x64_0_0 : ∀ a, (![0, 0] : Fin 2 → Nat) a + S240x64.size a ≤ S240x64.size a
  h_S240x64 : 0 < S240x64.numel
  shapeCasts_S3600x64_S4x30x30x64 : S3600x64.ShapeCasts S4x30x30x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S240x576.size a ≤ S3600x576.size a
  hwx0_0 : ∀ i : grid0.Coords, EltTy.bits .f32 = 32 ∨ (Rect.block (s := S3600x576) S240x576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x576.size a ≤ S64x576.size a
  hwx0_1 : ∀ i : grid0.Coords, EltTy.bits .f32 = 32 ∨ (Rect.block (s := S64x576) S64x576.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S240x64.size a ≤ S3600x64.size a
  hwx0_2 : ∀ i : grid0.Coords, EltTy.bits .f32 = 32 ∨ (Rect.block (s := S3600x64) S240x64.size (cc0_transform_2 i) (hinb0_2 i)).WholeWords (EltTy.packing .f32)

variable [Facts₀]

abbrev win0_0 : Pipeline.Window sig grid0 :=
  Pipeline.Window.ofSpec (Memref.whole main_v20) S240x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S64x576.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S240x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32x32x64 : Shape := ⟨4, ![4, 32, 32, 64]⟩
abbrev S576x64 : Shape := ⟨2, ![576, 64]⟩
abbrev S4x30x30x64 : Shape := ⟨4, ![4, 30, 30, 64]⟩
abbrev S4x30x30x1x64 : Shape := ⟨5, ![4, 30, 30, 1, 64]⟩
abbrev S4x30x30x9x64 : Shape := ⟨5, ![4, 30, 30, 9, 64]⟩
abbrev S4x30x30x576 : Shape := ⟨4, ![4, 30, 30, 576]⟩
abbrev S4x30x30x576x1 : Shape := ⟨5, ![4, 30, 30, 576, 1]⟩
abbrev S1x1x1x576x64 : Shape := ⟨5, ![1, 1, 1, 576, 64]⟩
abbrev S4x30x30x576x64 : Shape := ⟨5, ![4, 30, 30, 576, 64]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4x32x32x64, .f32⟩
  | .hbm, ⟨1, _⟩ => ⟨S576x64, .f32⟩
  | .hbm, ⟨2, _⟩ => ⟨S4x30x30x64, .f32⟩
  | .hbm, ⟨3, _⟩ => ⟨S4x30x30x64, .f32⟩
  | .hbm, ⟨4, _⟩ => ⟨S4x30x30x64, .f32⟩
  | .hbm, ⟨5, _⟩ => ⟨S4x30x30x64, .f32⟩
  | .hbm, ⟨6, _⟩ => ⟨S4x30x30x64, .f32⟩
  | .hbm, ⟨7, _⟩ => ⟨S4x30x30x64, .f32⟩
  | .hbm, ⟨8, _⟩ => ⟨S4x30x30x64, .f32⟩
  | .hbm, ⟨9, _⟩ => ⟨S4x30x30x64, .f32⟩
  | .hbm, ⟨10, _⟩ => ⟨S4x30x30x64, .f32⟩
  | .hbm, ⟨11, _⟩ => ⟨S4x30x30x1x64, .f32⟩
  | .hbm, ⟨12, _⟩ => ⟨S4x30x30x1x64, .f32⟩
  | .hbm, ⟨13, _⟩ => ⟨S4x30x30x1x64, .f32⟩
  | .hbm, ⟨14, _⟩ => ⟨S4x30x30x1x64, .f32⟩
  | .hbm, ⟨15, _⟩ => ⟨S4x30x30x1x64, .f32⟩
  | .hbm, ⟨16, _⟩ => ⟨S4x30x30x1x64, .f32⟩
  | .hbm, ⟨17, _⟩ => ⟨S4x30x30x1x64, .f32⟩
  | .hbm, ⟨18, _⟩ => ⟨S4x30x30x1x64, .f32⟩
  | .hbm, ⟨19, _⟩ => ⟨S4x30x30x1x64, .f32⟩
  | .hbm, ⟨20, _⟩ => ⟨S4x30x30x9x64, .f32⟩
  | .hbm, ⟨21, _⟩ => ⟨S4x30x30x576, .f32⟩
  | .hbm, ⟨22, _⟩ => ⟨S4x30x30x576x1, .f32⟩
  | .hbm, ⟨23, _⟩ => ⟨S1x1x1x576x64, .f32⟩
  | .hbm, ⟨24, _⟩ => ⟨S4x30x30x576x64, .f32⟩
  | .hbm, ⟨25, _⟩ => ⟨S4x30x30x576x64, .f32⟩
  | .hbm, ⟨26, _⟩ => ⟨S4x30x30x576x64, .f32⟩
  | .hbm, ⟨27, _⟩ => ⟨S_, .f32⟩
  | .hbm, ⟨28, _⟩ => ⟨S4x30x30x64, .f32⟩
  | .hbm, ⟨29, _⟩ => ⟨S_, .f32⟩
  | .hbm, ⟨30, _⟩ => ⟨S4x30x30x64, .f32⟩
  | .hbm, ⟨31, _⟩ => ⟨S4x30x30x64, .f32⟩
  | _, _ => ⟨S4x32x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_cst : Ref sig .tc := ⟨.hbm, 27, rfl⟩
abbrev main_v25 : Ref sig .tc := ⟨.hbm, 28, rfl⟩
abbrev main_cst_0 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]

class Facts₀ : Prop where
  slices_S4x32x32x64_S4x30x30x64_0_0_0_0 : S4x32x32x64.Slices ![0, 0, 0, 0] S4x30x30x64
  slices_S4x32x32x64_S4x30x30x64_0_0_1_0 : S4x32x32x64.Slices ![0, 0, 1, 0] S4x30x30x64
  slices_S4x32x32x64_S4x30x30x64_0_0_2_0 : S4x32x32x64.Slices ![0, 0, 2, 0] S4x30x30x64
  slices_S4x32x32x64_S4x30x30x64_0_1_0_0 : S4x32x32x64.Slices ![0, 1, 0, 0] S4x30x30x64
  slices_S4x32x32x64_S4x30x30x64_0_1_1_0 : S4x32x32x64.Slices ![0, 1, 1, 0] S4x30x30x64
  slices_S4x32x32x64_S4x30x30x64_0_1_2_0 : S4x32x32x64.Slices ![0, 1, 2, 0] S4x30x30x64
  slices_S4x32x32x64_S4x30x30x64_0_2_0_0 : S4x32x32x64.Slices ![0, 2, 0, 0] S4x30x30x64
  slices_S4x32x32x64_S4x30x30x64_0_2_1_0 : S4x32x32x64.Slices ![0, 2, 1, 0] S4x30x30x64
  slices_S4x32x32x64_S4x30x30x64_0_2_2_0 : S4x32x32x64.Slices ![0, 2, 2, 0] S4x30x30x64
  bcast_S4x30x30x64_S4x30x30x1x64_0_1_2_4 : S4x30x30x64.BroadcastsInDim S4x30x30x1x64 (![0, 1, 2, 4] : Fin 4 → Fin S4x30x30x1x64.rank)
  concatenates_S4x30x30x1x64_S4x30x30x1x64_S4x30x30x1x64_S4x30x30x1x64_S4x30x30x1x64_S4x30x30x1x64_S4x30x30x1x64_S4x30x30x1x64_S4x30x30x1x64_S4x30x30x9x64_d3 : Shape.Concatenates [S4x30x30x1x64, S4x30x30x1x64, S4x30x30x1x64, S4x30x30x1x64, S4x30x30x1x64, S4x30x30x1x64, S4x30x30x1x64, S4x30x30x1x64, S4x30x30x1x64] S4x30x30x9x64 3
  shapeCasts_S4x30x30x9x64_S4x30x30x576 : S4x30x30x9x64.ShapeCasts S4x30x30x576
  bcast_S4x30x30x576_S4x30x30x576x1_0_1_2_3 : S4x30x30x576.BroadcastsInDim S4x30x30x576x1 (![0, 1, 2, 3] : Fin 4 → Fin S4x30x30x576x1.rank)
  bcast_S576x64_S1x1x1x576x64_3_4 : S576x64.BroadcastsInDim S1x1x1x576x64 (![3, 4] : Fin 2 → Fin S1x1x1x576x64.rank)
  bcast_S4x30x30x576x1_S4x30x30x576x64_0_1_2_3_4 : S4x30x30x576x1.BroadcastsInDim S4x30x30x576x64 (![0, 1, 2, 3, 4] : Fin 5 → Fin S4x30x30x576x64.rank)
  bcast_S1x1x1x576x64_S4x30x30x576x64_0_1_2_3_4 : S1x1x1x576x64.BroadcastsInDim S4x30x30x576x64 (![0, 1, 2, 3, 4] : Fin 5 → Fin S4x30x30x576x64.rank)
  reducesTo_S4x30x30x576x64_S4x30x30x64_d3 : S4x30x30x576x64.ReducesTo [3] S4x30x30x64
  h_S_ : 0 < S_.numel
  bcast_S_S4x30x30x64 : S_.BroadcastsInDim S4x30x30x64 (![] : Fin 0 → Fin S4x30x30x64.rank)

variable [Facts₀]

class Facts : Prop extends Facts₀ where

variable [Facts]
-- ==== Proof.KernelFrame.lean ====
/-
  The run of the max-plus convolution program around its one launch, at any float instance.

  The program first lays the input image out as a patch matrix (3600 rows, one per output pixel; 576 columns,
  one per offset of the 3 × 3 window and channel) and transposes the weight matrix; the launch walks the patch
  matrix in 15 blocks of 240 rows, each grid point reading its block of rows and the whole transposed weight
  matrix and writing a block of 240 rows of the result; one more line reshapes the 3600 × 64 result.

  Stated here: what every block's staging buffer holds after the body (the body's single store, which covers
  the block, over the two blocks it loaded), the body's triple, and from these the run of the whole program:
  it terminates, faults nowhere, ends with the result rows at what the points wrote and with both argument
  arrays as they were.
-/
import proofs.«117733_j9749575762016_2_alg».proof.Proof.Gen.Kernel.Launch
import proofs.«117733_j9749575762016_2_alg».proof.Proof.Gen.Kernel.Skeleton
import proofs.«117733_j9749575762016_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the launch begins -/

/-- Every buffer of core `c` after the lines that precede the launch: the patch matrix and the transposed
    weights are written, the arguments are not touched. -/
abbrev entry (c : Dev nD) : Valuation τ sig (Elt F) := StableHlo.after (List.flatten [hostOps0]) (fun b => m (c, b))
/-- The same, read at one buffer. -/
abbrev atEntry (c : Dev nD) (b : Ref sig .tc) : Buf (Elt F) ((c : Thread nD τ).loc b) := entry m c (Proc.devRef .tc b)

theorem before_alloc : (hostOps0 : List (HloOp τ sig (Elt F))).Forall fun op => op.fresh = ∅ := by
  simp only [List.Forall]; repeat' constructor
theorem after_alloc : (hostOps1 : List (HloOp τ sig (Elt F))).Forall fun op => op.fresh = ∅ := by
  simp only [List.Forall]; repeat' constructor

/-- The program is: the lines before the launch, the launch, the reshape after it. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_alloc) main_chain

/-- The reshape after the launch reads and writes only unscoped buffers of the core, -/
theorem tail_refs : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_alloc : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_alloc) op hop
/-- and writes none of the three arrays the launch walks (it writes the reshaped result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No line before the launch writes the image: the launch finds it as the program was given it. -/
theorem entry_image (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Nor the weights. -/
theorem entry_weights (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- The reshape after the launch does not write the image either: it ends as given. -/
theorem end_image (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entry m c) _ main_arg0 (by exact (by decide : ∀ w, Pipeline.arrRef spec0 w ≠ main_arg0))]
  exact entry_image m c

/-- Nor the weights. -/
theorem end_weights (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entry m c) _ main_arg1 (by exact (by decide : ∀ w, Pipeline.arrRef spec0 w ≠ main_arg1))]
  exact entry_weights m c

/-! ## The blocks -/

/-- Window `w`'s block at grid point `t`: the rectangle of its array (as the launch finds it) that the point works on —
    rows 240·t … 240·t + 239 of the patch matrix, the whole transposed weight matrix, rows 240·t … of the result. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The patch rows' staging buffer holds the point's block of rows whenever the body is called. -/
theorem patches_found {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The transposed weights are fetched at the first point only; their block index never moves, so the staging
    buffer holds the whole matrix at every point. -/
theorem weights_found {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the result block -/

abbrev wholePatchBlock : Rect S240x576 := Rect.unit (s := S240x576) ![0, 0] S240x576.size inb_S240x576_S240x576_0_0
abbrev wholeWeights : Rect S64x576 := Rect.unit (s := S64x576) ![0, 0] S64x576.size inb_S64x576_S64x576_0_0
abbrev wholeResultBlock : Rect S240x64 := Rect.unit (s := S240x64) ![0, 0] S240x64.size inb_S240x64_S240x64_0_0

/-- The body's arithmetic as one function of the two blocks it loads: the running maximum over the first four
    column groups and the fifth group's maximum come from the first part of the body, the remaining groups, the fold
    and the final product from the second. -/
def bodyValue (x0 : Vec F S240x576 .f32) (x1 : Vec F S64x576 .f32) : FVec F S240x64 .f32 :=
  k0_pay1 (k0_pay2 (View.ld x0 wholePatchBlock)) (k0_pay3 (View.ld x1 wholeWeights))
    (k0_pay4 (View.ld x0 wholePatchBlock) (View.ld x1 wholeWeights)) (k0_pay5 (View.ld x0 wholePatchBlock) (View.ld x1 wholeWeights))

/-- The result block's staging buffer after the body: its one store, of the whole block. -/
def resultBlock (x0 : Vec F S240x576 .f32) (x1 : Vec F S64x576 .f32) : Vec F S240x64 .f32 :=
  View.canon [⟨wholeResultBlock, bodyValue x0 x1⟩]

/-- That store covers the block. -/
theorem store_covers (p0 : Vec F S240x64 .f32) (y : S240x64.Idx) :
    ∃ pc ∈ ([⟨wholeResultBlock, p0⟩] : List (View.Piece (Elt F) S240x64 .f32)), y ∈ pc.1.set :=
  View.cover_of_tiled [⟨wholeResultBlock, p0⟩] S240x64.size (by rfl) y

/-! ## The body's triple -/

set_option maxHeartbeats 1000000 in
/-- On whole staging buffers — the two inputs at known contents, the result's at anything — the body runs to its
    end leaving the inputs as they were and the result's buffer at `resultBlock` of them. -/
theorem body_triple (c : Dev nD) (E : Set ℕ) (i : grid0.Coords) (arg1 : Memref sig .tc .vmem S240x576 .f32) (harg1 : arg1.IsWhole)
    (arg2 : Memref sig .tc .vmem S64x576 .f32) (harg2 : arg2.IsWhole) (arg3 : Memref sig .tc .vmem S240x64 .f32) (harg3 : arg3.IsWhole)
    (x0 : Vec F S240x576 .f32) (x1 : Vec F S64x576 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (resultBlock x0 x1)) -∗ K ⟨⟩))
      ⊢ wp frame (wpE (defs₀ (F := F)) Variants.none c none) E (cc0__tropical_kernel i arg1 harg1 arg2 harg2 arg3 harg3) K := by
  simp only [cc0__tropical_kernel_eq_skeleton]; unfold cc0__tropical_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (store_covers _)

/-! ## The launch's proof data -/

/-- Per core: the three arrays as the launch finds them; after the body at point `t` the inputs' buffers at their
    blocks and the result's at `resultBlock` of them; nothing of its own kept between points. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => resultBlock (blockAt m c 0 t) (blockAt m c 1 t)
  Φ _ := Pipeline.ΦA spec0 c
  q _ := fullShare
  owed _ := 0

theorem arrays_eq (c : Dev nD) (w : Fin cfg0.W) : (dats m 0 c).A w = atEntry m c (Pipeline.arrRef spec0 w) := by
  dsimp only [dats]

theorem after_patches (c : Dev nD) (t : Fin cfg0.N) : (dats m 0 c).after 0 t = blockAt m c 0 t := by dsimp only [dats]
theorem after_weights (c : Dev nD) (t : Fin cfg0.N) : (dats m 0 c).after 1 t = blockAt m c 1 t := by dsimp only [dats]
theorem after_result (c : Dev nD) (t : Fin cfg0.N) :
    (dats m 0 c).after 2 t = resultBlock (blockAt m c 0 t) (blockAt m c 1 t) := by dsimp only [dats]

theorem before_patches (c : Dev nD) (t : Fin cfg0.N) (d) : (dats m 0 c).before 0 t d = blockAt m c 0 t :=
  patches_found m (dats m 0 c) (arrays_eq m c 0) (after_patches m c) t d
theorem before_weights (c : Dev nD) (t : Fin cfg0.N) (d) : (dats m 0 c).before 1 t d = blockAt m c 1 t :=
  weights_found m (dats m 0 c) (arrays_eq m c 1) (after_weights m c) t d

/-! ## The body at a grid point -/

def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; what the launch keeps for
    itself passes through untouched. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_patches, before_weights]
  rw [show (dats m 0 c).Φ t.succ = (dats m 0 c).Φ t.castSucc from rfl,
    show (dats m 0 c).owesAt () t.succ = (dats m 0 c).owesAt () t.castSucc from rfl,
    after_patches, after_weights, after_result]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem every_point (c : Dev nD) : BodyObligation (dats (F := F) m 0 c) (defs₀ (F := F)) Variants.none () Set.univ := fun t => by
  rw [bigSep_W0, bigSep_W0]
  exact point_sound m c t

/-! ## The run -/

set_option backward.isDefEq.respectTransparency.types false in
/-- From any memory with zero counters every weakly fair execution of the program terminates without a fault; at the end
    each of the launch's three arrays holds what the proof data computes (the result: its entry contents overwritten,
    block by block, by what the points left) and every other buffer what the final reshape leaves. -/
theorem run_main : θ_run defs (onTc (τ := τ) (main (F := F))) (s₀ m ρ) (Pipeline.FramePost cfgs (dats m) 0 (Pipeline.afterTail₀ cfgs (dats m) 0 (entry m) [hostOps1])) :=
  Pipeline.θ_run_frame_around cfgs (dats m) (0 : Fin 1) launch0 defs₀ Variants.none m ρ main
    (hbody := fun c => (every_point m c).loose) (hshare := fun c => (dats m 0 c).share_full fun _ => rfl)
    (howed := fun _ _ => rfl) (V₀ := entry m) (opss := [hostOps1]) (hsub := tail_refs) (hfresh := tail_alloc) (hkeep := tail_keeps)
    (hmain := main_around m Variants.none) (hA := arrays_eq m) (hΦ := fun _ _ => rfl)

/-- The program runs to its end and both argument arrays end as they were given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (end_image m (dats m) c),
     ((h c).2 main_arg1 (Pipeline.mem_restRefs_of main_arg1 (by decide) (by decide))).trans (end_weights m (dats m) c)⟩) (run_main m ρ)

end Cert.Kernel.Around

end
-- ==== Proof.KernelIdealFrame.lean ====
/-
  The run of the max-plus convolution program around its one launch, at any float instance.

  The program first lays the input image out as a patch matrix (3600 rows, one per output pixel; 576 columns,
  one per offset of the 3 × 3 window and channel) and transposes the weight matrix; the launch walks the patch
  matrix in 15 blocks of 240 rows, each grid point reading its block of rows and the whole transposed weight
  matrix and writing a block of 240 rows of the result; one more line reshapes the 3600 × 64 result.

  Stated here: what every block's staging buffer holds after the body (the body's single store, which covers
  the block, over the two blocks it loaded), the body's triple, and from these the run of the whole program:
  it terminates, faults nowhere, ends with the result rows at what the points wrote and with both argument
  arrays as they were.
-/
import proofs.«117733_j9749575762016_2_alg».proof.Proof.Gen.KernelIdeal.Launch
import proofs.«117733_j9749575762016_2_alg».proof.Proof.Gen.KernelIdeal.Skeleton
import proofs.«117733_j9749575762016_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the launch begins -/

/-- Every buffer of core `c` after the lines that precede the launch: the patch matrix and the transposed
    weights are written, the arguments are not touched. -/
abbrev entry (c : Dev nD) : Valuation τ sig (Elt F) := StableHlo.after (List.flatten [hostOps0]) (fun b => m (c, b))
/-- The same, read at one buffer. -/
abbrev atEntry (c : Dev nD) (b : Ref sig .tc) : Buf (Elt F) ((c : Thread nD τ).loc b) := entry m c (Proc.devRef .tc b)

theorem before_alloc : (hostOps0 : List (HloOp τ sig (Elt F))).Forall fun op => op.fresh = ∅ := by
  simp only [List.Forall]; repeat' constructor
theorem after_alloc : (hostOps1 : List (HloOp τ sig (Elt F))).Forall fun op => op.fresh = ∅ := by
  simp only [List.Forall]; repeat' constructor

/-- The program is: the lines before the launch, the launch, the reshape after it. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_alloc) main_chain

/-- The reshape after the launch reads and writes only unscoped buffers of the core, -/
theorem tail_refs : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_alloc : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_alloc) op hop
/-- and writes none of the three arrays the launch walks (it writes the reshaped result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No line before the launch writes the image: the launch finds it as the program was given it. -/
theorem entry_image (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Nor the weights. -/
theorem entry_weights (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- The reshape after the launch does not write the image either: it ends as given. -/
theorem end_image (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entry m c) _ main_arg0 (by exact (by decide : ∀ w, Pipeline.arrRef spec0 w ≠ main_arg0))]
  exact entry_image m c

/-- Nor the weights. -/
theorem end_weights (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entry m c) _ main_arg1 (by exact (by decide : ∀ w, Pipeline.arrRef spec0 w ≠ main_arg1))]
  exact entry_weights m c

/-! ## The blocks -/

/-- Window `w`'s block at grid point `t`: the rectangle of its array (as the launch finds it) that the point works on —
    rows 240·t … 240·t + 239 of the patch matrix, the whole transposed weight matrix, rows 240·t … of the result. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The patch rows' staging buffer holds the point's block of rows whenever the body is called. -/
theorem patches_found {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The transposed weights are fetched at the first point only; their block index never moves, so the staging
    buffer holds the whole matrix at every point. -/
theorem weights_found {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the result block -/

abbrev wholePatchBlock : Rect S240x576 := Rect.unit (s := S240x576) ![0, 0] S240x576.size inb_S240x576_S240x576_0_0
abbrev wholeWeights : Rect S64x576 := Rect.unit (s := S64x576) ![0, 0] S64x576.size inb_S64x576_S64x576_0_0
abbrev wholeResultBlock : Rect S240x64 := Rect.unit (s := S240x64) ![0, 0] S240x64.size inb_S240x64_S240x64_0_0

/-- The body's arithmetic as one function of the two blocks it loads: the running maximum over the first four
    column groups and the fifth group's maximum come from the first part of the body, the remaining groups, the fold
    and the final product from the second. -/
def bodyValue (x0 : Vec F S240x576 .f32) (x1 : Vec F S64x576 .f32) : FVec F S240x64 .f32 :=
  k0_pay1 (k0_pay2 (View.ld x0 wholePatchBlock)) (k0_pay3 (View.ld x1 wholeWeights))
    (k0_pay4 (View.ld x0 wholePatchBlock) (View.ld x1 wholeWeights)) (k0_pay5 (View.ld x0 wholePatchBlock) (View.ld x1 wholeWeights))

/-- The result block's staging buffer after the body: its one store, of the whole block. -/
def resultBlock (x0 : Vec F S240x576 .f32) (x1 : Vec F S64x576 .f32) : Vec F S240x64 .f32 :=
  View.canon [⟨wholeResultBlock, bodyValue x0 x1⟩]

/-- That store covers the block. -/
theorem store_covers (p0 : Vec F S240x64 .f32) (y : S240x64.Idx) :
    ∃ pc ∈ ([⟨wholeResultBlock, p0⟩] : List (View.Piece (Elt F) S240x64 .f32)), y ∈ pc.1.set :=
  View.cover_of_tiled [⟨wholeResultBlock, p0⟩] S240x64.size (by rfl) y

/-! ## The body's triple -/

set_option maxHeartbeats 1000000 in
/-- On whole staging buffers — the two inputs at known contents, the result's at anything — the body runs to its
    end leaving the inputs as they were and the result's buffer at `resultBlock` of them. -/
theorem body_triple (c : Dev nD) (E : Set ℕ) (i : grid0.Coords) (arg1 : Memref sig .tc .vmem S240x576 .f32) (harg1 : arg1.IsWhole)
    (arg2 : Memref sig .tc .vmem S64x576 .f32) (harg2 : arg2.IsWhole) (arg3 : Memref sig .tc .vmem S240x64 .f32) (harg3 : arg3.IsWhole)
    (x0 : Vec F S240x576 .f32) (x1 : Vec F S64x576 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (resultBlock x0 x1)) -∗ K ⟨⟩))
      ⊢ wp frame (wpE (defs₀ (F := F)) Variants.none c none) E (cc0__tropical_kernel i arg1 harg1 arg2 harg2 arg3 harg3) K := by
  simp only [cc0__tropical_kernel_eq_skeleton]; unfold cc0__tropical_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (store_covers _)

/-! ## The launch's proof data -/

/-- Per core: the three arrays as the launch finds them; after the body at point `t` the inputs' buffers at their
    blocks and the result's at `resultBlock` of them; nothing of its own kept between points. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => resultBlock (blockAt m c 0 t) (blockAt m c 1 t)
  Φ _ := Pipeline.ΦA spec0 c
  q _ := fullShare
  owed _ := 0

theorem arrays_eq (c : Dev nD) (w : Fin cfg0.W) : (dats m 0 c).A w = atEntry m c (Pipeline.arrRef spec0 w) := by
  dsimp only [dats]

theorem after_patches (c : Dev nD) (t : Fin cfg0.N) : (dats m 0 c).after 0 t = blockAt m c 0 t := by dsimp only [dats]
theorem after_weights (c : Dev nD) (t : Fin cfg0.N) : (dats m 0 c).after 1 t = blockAt m c 1 t := by dsimp only [dats]
theorem after_result (c : Dev nD) (t : Fin cfg0.N) :
    (dats m 0 c).after 2 t = resultBlock (blockAt m c 0 t) (blockAt m c 1 t) := by dsimp only [dats]

theorem before_patches (c : Dev nD) (t : Fin cfg0.N) (d) : (dats m 0 c).before 0 t d = blockAt m c 0 t :=
  patches_found m (dats m 0 c) (arrays_eq m c 0) (after_patches m c) t d
theorem before_weights (c : Dev nD) (t : Fin cfg0.N) (d) : (dats m 0 c).before 1 t d = blockAt m c 1 t :=
  weights_found m (dats m 0 c) (arrays_eq m c 1) (after_weights m c) t d

/-! ## The body at a grid point -/

def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; what the launch keeps for
    itself passes through untouched. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_patches, before_weights]
  rw [show (dats m 0 c).Φ t.succ = (dats m 0 c).Φ t.castSucc from rfl,
    show (dats m 0 c).owesAt () t.succ = (dats m 0 c).owesAt () t.castSucc from rfl,
    after_patches, after_weights, after_result]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem every_point (c : Dev nD) : BodyObligation (dats (F := F) m 0 c) (defs₀ (F := F)) Variants.none () Set.univ := fun t => by
  rw [bigSep_W0, bigSep_W0]
  exact point_sound m c t

/-! ## The run -/

set_option backward.isDefEq.respectTransparency.types false in
/-- From any memory with zero counters every weakly fair execution of the program terminates without a fault; at the end
    each of the launch's three arrays holds what the proof data computes (the result: its entry contents overwritten,
    block by block, by what the points left) and every other buffer what the final reshape leaves. -/
theorem run_main : θ_run defs (onTc (τ := τ) (main (F := F))) (s₀ m ρ) (Pipeline.FramePost cfgs (dats m) 0 (Pipeline.afterTail₀ cfgs (dats m) 0 (entry m) [hostOps1])) :=
  Pipeline.θ_run_frame_around cfgs (dats m) (0 : Fin 1) launch0 defs₀ Variants.none m ρ main
    (hbody := fun c => (every_point m c).loose) (hshare := fun c => (dats m 0 c).share_full fun _ => rfl)
    (howed := fun _ _ => rfl) (V₀ := entry m) (opss := [hostOps1]) (hsub := tail_refs) (hfresh := tail_alloc) (hkeep := tail_keeps)
    (hmain := main_around m Variants.none) (hA := arrays_eq m) (hΦ := fun _ _ => rfl)

/-- The program runs to its end and both argument arrays end as they were given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (end_image m (dats m) c),
     ((h c).2 main_arg1 (Pipeline.mem_restRefs_of main_arg1 (by decide) (by decide))).trans (end_weights m (dats m) c)⟩) (run_main m ρ)

end Cert.KernelIdeal.Around

end
-- ==== Proof.MaxRuns.lean ====
/-
  One law of a finite maximum, in any linear order: the maximum of 576 terms, taken as a fold from a starting
  value `b`, is the nested maximum of `b` with the nine maxima of the consecutive runs of 64 terms, each again
  folded from `b`. Both sides are the least upper bound of `b` and all 576 terms: a term `a p` sits in run
  `p / 64` at place `p % 64`, and `max` is idempotent, so repeating `b` changes nothing. Nothing is assumed of
  `b`; where it is the least element the statement is the familiar "a maximum may be taken run by run".
-/
import Mathlib.Data.Finset.Fold
import Mathlib.Order.Lattice
import Mathlib.Tactic

namespace Cert.MaxRuns

variable {α : Type*} [LinearOrder α]

/-- Place `k` of run `g` (of nine runs of 64) among 576. -/
def place (g : Fin 9) (k : Fin 64) : Fin 576 := ⟨64 * g.val + k.val, by have := g.isLt; have := k.isLt; omega⟩

theorem place_val (g : Fin 9) (k : Fin 64) : (place g k).val = 64 * g.val + k.val := rfl

/-- Every one of the 576 is a place of a run. -/
theorem exists_place (p : Fin 576) : ∃ g k, place g k = p :=
  ⟨⟨p.val / 64, by have := p.isLt; omega⟩, ⟨p.val % 64, Nat.mod_lt _ (by norm_num)⟩, Fin.ext (by
    show 64 * (p.val / 64) + p.val % 64 = p.val; omega)⟩

/-- The maximum of run `g`, folded from `b`. -/
def run (b : α) (a : Fin 576 → α) (g : Fin 9) : α := (Finset.univ : Finset (Fin 64)).fold max b fun k => a (place g k)

theorem le_run (b : α) (a : Fin 576 → α) (g : Fin 9) (k : Fin 64) : a (place g k) ≤ run b a g :=
  (Finset.le_fold_max _).mpr (Or.inr ⟨k, Finset.mem_univ _, le_rfl⟩)

theorem start_le_run (b : α) (a : Fin 576 → α) (g : Fin 9) : b ≤ run b a g :=
  (Finset.le_fold_max _).mpr (Or.inl le_rfl)

/-- The nine runs folded one after the other into a running maximum that starts at `b`. -/
def nested (b : α) (a : Fin 576 → α) : α :=
  max (max (max (max (max (max (max (max (max b (run b a 0)) (run b a 1)) (run b a 2)) (run b a 3)) (run b a 4)) (run b a 5))
    (run b a 6)) (run b a 7)) (run b a 8)

theorem run_le_nested (b : α) (a : Fin 576 → α) (g : Fin 9) : run b a g ≤ nested b a := by
  unfold nested
  fin_cases g <;> simp [le_max_iff]

/-- The law. -/
theorem fold_eq_nested (b : α) (a : Fin 576 → α) :
    (Finset.univ : Finset (Fin 576)).fold max b a = nested b a := by
  apply le_antisymm
  · refine (Finset.fold_max_le _).mpr ⟨?_, fun p _ => ?_⟩
    · exact (start_le_run b a 0).trans (run_le_nested b a 0)
    · obtain ⟨g, k, rfl⟩ := exists_place p
      exact (le_run b a g k).trans (run_le_nested b a g)
  · have hb : b ≤ (Finset.univ : Finset (Fin 576)).fold max b a := (Finset.le_fold_max _).mpr (Or.inl le_rfl)
    have hr : ∀ g, run b a g ≤ (Finset.univ : Finset (Fin 576)).fold max b a := fun g =>
      (Finset.fold_max_le _).mpr ⟨hb, fun k _ => (Finset.le_fold_max _).mpr (Or.inr ⟨place g k, Finset.mem_univ _, le_rfl⟩)⟩
    unfold nested
    simp only [max_le_iff]
    exact ⟨⟨⟨⟨⟨⟨⟨⟨⟨hb, hr 0⟩, hr 1⟩, hr 2⟩, hr 3⟩, hr 4⟩, hr 5⟩, hr 6⟩, hr 7⟩, hr 8⟩

end Cert.MaxRuns
-- ==== Proof.Spec.lean ====
/-
  The max-plus ("tropical") convolution as one function, index by index, on the extended reals.

  `P` is the patch array: `P (n, h, w, p)` is the image entry that offset-and-channel `p` (of 3·3·64 = 576) of the
  window at output pixel `(n, h, w)` looks at; `K (p, f)` is the weight of `p` for output feature `f`. The
  convolution at `(n, h, w, f)` is the maximum over `p` of `P (n, h, w, p) + K (p, f)`, taken as a fold from the
  starting value `b` both programs use (the word 0xFF800000, minus infinity), and then multiplied by the constant
  `u` both programs use (the word 0x3F800000, one). Neither word is ever evaluated: each appears in the same
  place on both sides.
-/
import Idealize.ShloMosaic.PureOps.Ideal
import Idealize.ShloMosaic.Lib.ValueIdx
import proofs.«117733_j9749575762016_2_alg».proof.Proof.MaxRuns

noncomputable section

namespace Cert.Tropical

open Idealize.ShloMosaic Idealize.ShloMosaic.ValueIdx

/-- The starting value of every maximum. -/
abbrev start : Ideal .f32 := Ideal.ofBits .f32 0xFF800000#32
/-- The final factor. -/
abbrev factor : Ideal .f32 := Ideal.ofBits .f32 0x3F800000#32

/-- The terms whose maximum is taken at output pixel row `P' ` (the patch array at one pixel, as a function of `p`)
    and weight column `K'`. -/
def terms (P' K' : Fin 576 → Ideal .f32) : Fin 576 → Ideal .f32 := fun p => P' p + K' p

/-- One entry of the convolution from the pixel's patch row and the feature's weight column. -/
def entry (P' K' : Fin 576 → Ideal .f32) : Ideal .f32 :=
  (Finset.univ : Finset (Fin 576)).fold max start (terms P' K') * factor

/-- The same entry with the maximum taken run by run: nine runs of 64 folded into a running maximum. -/
theorem entry_eq_nested (P' K' : Fin 576 → Ideal .f32) :
    entry P' K' = Cert.MaxRuns.nested start (terms P' K') * factor := by
  unfold entry
  rw [Cert.MaxRuns.fold_eq_nested]

/-- The convolution of a patch array with a weight matrix. -/
def conv (P : (⟨4, ![4, 30, 30, 576]⟩ : Shape).Idx → Ideal .f32) (K : (⟨2, ![576, 64]⟩ : Shape).Idx → Ideal .f32) :
    (⟨4, ![4, 30, 30, 64]⟩ : Shape).Idx → Ideal .f32 :=
  fun i => entry (fun p => P (ix4 (i 0) (i 1) (i 2) p)) (fun p => K (ix2 p (i 3)))

end Cert.Tropical

end
-- ==== Proof.KernelIdealPayload.lean ====
/-
  The body's arithmetic read at one entry of the result block.

  The body works on a block of 240 patch rows `X0` (240 × 576) and the transposed weights `X1` (64 × 576). For each
  of the nine runs of 64 consecutive columns it re-lays the two 64-wide slices to rank 3, broadcasts them against each
  other, adds, and takes the maximum along the last axis from the starting value; the nine results are folded, one after
  the other, into a running maximum that starts at the same value, and the end is multiplied by a constant. Read at
  entry `(p, q)` of the block, run `g` is the maximum `Cert.MaxRuns.run` of the terms `X0 (p, k) + X1 (q, k)` over the
  places of run `g`.
-/
import proofs.«117733_j9749575762016_2_alg».proof.Proof.Gen.KernelIdeal.Skeleton
import proofs.«117733_j9749575762016_2_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Idealize.ShloMosaic Idealize.ShloMosaic.ValueIdx
open Cert.Tropical (start factor terms)

/-- Run `g` — the 64 columns from column `o = 64·g` on — of (patch row `p`) + (weight row `q`), as the body computes it:
    both slices re-laid to rank 3 and broadcast against each other, added, and reduced along the last axis from the
    starting value. -/
theorem run_apply (g : Fin 9) (o : Nat) (ho : o = 64 * g.val) (x0 : FVec Ideal S240x576 .f32) (x1 : FVec Ideal S64x576 .f32)
    (hs0 : S240x576.Slices ![0, o] S240x64) (hs1 : S64x576.Slices ![0, o] S64x64)
    (hc0 : S240x64.ShapeCasts S240x1x64) (hc1 : S64x64.ShapeCasts S1x64x64)
    (hb0 : S240x1x64.Broadcasts S240x64x64) (hb1 : S1x64x64.Broadcasts S240x64x64)
    (hr : S240x64x64.Reduces [2] S240x64) (p : Fin 240) (q : Fin 64) :
    multiReduction (F := Ideal) .maximumf [2] S240x64 (addf (broadcastTo S240x64x64 (shapeCast S240x1x64 (extractStridedSlice S240x64 ![0, o] x0 hs0) hc0) hb0) (broadcastTo S240x64x64 (shapeCast S1x64x64 (extractStridedSlice S64x64 ![0, o] x1 hs1) hc1) hb1)) 0xFF800000#32 hr (.inl rfl) rfl (ix2 p q)
    = Cert.MaxRuns.run start (terms (fun k => x0 (ix2 p k)) (fun k => x1 (ix2 q k))) g := by
  refine (Ideal.multiReduction_maximumf_single _ _ hr _ _ _).trans ?_
  unfold Cert.MaxRuns.run
  show (Finset.univ : Finset (Fin 64)).fold max (Ideal.ofBits .f32 0xFF800000#32) _ = _
  refine congrArg (fun u => (Finset.univ : Finset (Fin 64)).fold max (Ideal.ofBits .f32 0xFF800000#32) u) (funext fun (k : Fin 64) => ?_)
  have hk : k.val < 64 := k.isLt
  have hg : g.val < 9 := g.isLt
  show broadcastTo S240x64x64 (shapeCast S240x1x64 (extractStridedSlice S240x64 ![0, o] x0 hs0) hc0) hb0 (hr.lift (ix2 p q) k)
      + broadcastTo S240x64x64 (shapeCast S1x64x64 (extractStridedSlice S64x64 ![0, o] x1 hs1) hc1) hb1 (hr.lift (ix2 p q) k)
    = x0 (ix2 p (Cert.MaxRuns.place g k)) + x1 (ix2 q (Cert.MaxRuns.place g k))
  congr 1
  · refine (broadcastTo_apply _ hb0 _ (ix3 p (0 : Fin 1) k) (fun a => by fin_cases a <;> rfl)).trans ?_
    refine (shapeCast_apply _ hc0 _ (ix2 p k) ?_).trans ?_
    · rw [Shape.rowMajor_val_two, Shape.rowMajor_val_three]
      show p.val * 64 + k.val = (p.val * 1 + 0) * 64 + k.val
      omega
    · exact extractStridedSlice_apply _ x0 hs0 _ _ (fun a => by
        fin_cases a
        · show p.val = 0 + p.val; omega
        · show 64 * g.val + k.val = o + k.val; omega)
  · refine (broadcastTo_apply _ hb1 _ (ix3 (0 : Fin 1) q k) (fun a => by fin_cases a <;> rfl)).trans ?_
    refine (shapeCast_apply _ hc1 _ (ix2 q k) ?_).trans ?_
    · rw [Shape.rowMajor_val_two, Shape.rowMajor_val_three]
      show q.val * 64 + k.val = (0 * 64 + q.val) * 64 + k.val
      omega
    · exact extractStridedSlice_apply _ x1 hs1 _ _ (fun a => by
        fin_cases a
        · show q.val = 0 + q.val; omega
        · show 64 * g.val + k.val = o + k.val; omega)

/-- One run for every entry of the block at once: the vector the body forms. -/
def runVec (g : Fin 9) (o : Nat) (ho : o = 64 * g.val) (x0 : FVec Ideal S240x576 .f32) (x1 : FVec Ideal S64x576 .f32)
    (hs0 : S240x576.Slices ![0, o] S240x64) (hs1 : S64x576.Slices ![0, o] S64x64) : FVec Ideal S240x64 .f32 :=
  multiReduction (F := Ideal) .maximumf [2] S240x64 (addf (broadcastTo S240x64x64 (shapeCast S240x1x64 (extractStridedSlice S240x64 ![0, o] x0 hs0) Cert.KernelIdeal.Gen.shapeCasts_S240x64_S240x1x64) Cert.KernelIdeal.Gen.broadcasts_S240x1x64_S240x64x64) (broadcastTo S240x64x64 (shapeCast S1x64x64 (extractStridedSlice S64x64 ![0, o] x1 hs1) Cert.KernelIdeal.Gen.shapeCasts_S64x64_S1x64x64) Cert.KernelIdeal.Gen.broadcasts_S1x64x64_S240x64x64)) 0xFF800000#32 Cert.KernelIdeal.Gen.reduces_S240x64x64_S240x64 (.inl rfl) rfl

theorem runVec_apply (g : Fin 9) (o : Nat) (ho : o = 64 * g.val) (x0 : FVec Ideal S240x576 .f32) (x1 : FVec Ideal S64x576 .f32)
    (hs0 : S240x576.Slices ![0, o] S240x64) (hs1 : S64x576.Slices ![0, o] S64x64) (p : Fin 240) (q : Fin 64) :
    runVec g o ho x0 x1 hs0 hs1 (ix2 p q) = Cert.MaxRuns.run start (terms (fun k => x0 (ix2 p k)) (fun k => x1 (ix2 q k))) g :=
  run_apply g o ho x0 x1 hs0 hs1 _ _ _ _ _ p q

set_option maxRecDepth 65536 in
/-- The fifth run, computed by itself in the first part of the body. -/
theorem fifth_shape (v0 : FVec Ideal S240x576 .f32) (v2 : FVec Ideal S64x576 .f32) :
    Cert.KernelIdeal.Gen.k0_pay5 (F := Ideal) v0 v2 = (runVec 4 256 rfl (Cert.KernelIdeal.Gen.k0_pay2 v0) (Cert.KernelIdeal.Gen.k0_pay3 v2) Cert.KernelIdeal.Gen.slices_S240x576_o0_256_S240x64 Cert.KernelIdeal.Gen.slices_S64x576_o0_256_S64x64) := rfl

set_option maxRecDepth 65536 in
/-- The running maximum after the first four runs. -/
theorem firstFour_shape (v0 : FVec Ideal S240x576 .f32) (v2 : FVec Ideal S64x576 .f32) :
    Cert.KernelIdeal.Gen.k0_pay4 (F := Ideal) v0 v2
      = maximumf (maximumf (maximumf (maximumf (broadcast S240x64 (Scalar.ofBits (F := Ideal) .f32 0xFF800000#32))
          (runVec 0 0 rfl (Cert.KernelIdeal.Gen.k0_pay2 v0) (Cert.KernelIdeal.Gen.k0_pay3 v2) Cert.KernelIdeal.Gen.slices_S240x576_o0_0_S240x64 Cert.KernelIdeal.Gen.slices_S64x576_o0_0_S64x64)) (runVec 1 64 rfl (Cert.KernelIdeal.Gen.k0_pay2 v0) (Cert.KernelIdeal.Gen.k0_pay3 v2) Cert.KernelIdeal.Gen.slices_S240x576_o0_64_S240x64 Cert.KernelIdeal.Gen.slices_S64x576_o0_64_S64x64))
          (runVec 2 128 rfl (Cert.KernelIdeal.Gen.k0_pay2 v0) (Cert.KernelIdeal.Gen.k0_pay3 v2) Cert.KernelIdeal.Gen.slices_S240x576_o0_128_S240x64 Cert.KernelIdeal.Gen.slices_S64x576_o0_128_S64x64)) (runVec 3 192 rfl (Cert.KernelIdeal.Gen.k0_pay2 v0) (Cert.KernelIdeal.Gen.k0_pay3 v2) Cert.KernelIdeal.Gen.slices_S240x576_o0_192_S240x64 Cert.KernelIdeal.Gen.slices_S64x576_o0_192_S64x64) := rfl

set_option maxRecDepth 65536 in
/-- The second part of the body: the fifth run joins the running maximum, then the last four, then the product. -/
theorem rest_shape (v1 : FVec Ideal S240x576 .f32) (v3 : FVec Ideal S64x576 .f32) (v40 v48 : FVec Ideal S240x64 .f32) :
    Cert.KernelIdeal.Gen.k0_pay1 (F := Ideal) v1 v3 v40 v48
      = mulf (maximumf (maximumf (maximumf (maximumf (maximumf v40 v48) (runVec 5 320 rfl v1 v3 Cert.KernelIdeal.Gen.slices_S240x576_o0_320_S240x64 Cert.KernelIdeal.Gen.slices_S64x576_o0_320_S64x64)) (runVec 6 384 rfl v1 v3 Cert.KernelIdeal.Gen.slices_S240x576_o0_384_S240x64 Cert.KernelIdeal.Gen.slices_S64x576_o0_384_S64x64))
          (runVec 7 448 rfl v1 v3 Cert.KernelIdeal.Gen.slices_S240x576_o0_448_S240x64 Cert.KernelIdeal.Gen.slices_S64x576_o0_448_S64x64)) (runVec 8 512 rfl v1 v3 Cert.KernelIdeal.Gen.slices_S240x576_o0_512_S240x64 Cert.KernelIdeal.Gen.slices_S64x576_o0_512_S64x64)) (broadcast S240x64 (Scalar.ofBits (F := Ideal) .f32 0x3F800000#32)) := rfl

end Cert.KernelIdeal.Payload

end
-- ==== Proof.KernelIdealBody.lean ====
/-
  The whole of the body's arithmetic at one entry of the result block: the nine runs' maxima folded into a running
  maximum from the starting value, times the constant — the nested form of `Cert.MaxRuns`.

  The running maximum of the first four runs is read for an arbitrary starting value first, and then at the program's.
-/
import proofs.«117733_j9749575762016_2_alg».proof.Proof.KernelIdealPayload

set_option Elab.async false

noncomputable section

namespace Cert.KernelIdeal.Payload

open Cert.KernelIdeal Idealize.ShloMosaic Idealize.ShloMosaic.ValueIdx
open Cert.Tropical (start factor terms)

/-- At the extended reals a scalar constant's value is its word's value, whichever way the program spells the constant. -/
theorem scalar_ofBits (φ : FTy) (b : BitVec φ.bits) : Scalar.ofBits (F := Ideal) φ b = Ideal.ofBits φ b := rfl

/-- The running maximum of the first four runs at entry `(p, q)`, from any value `b` in every entry, over any two blocks. -/
theorem nest4_apply (b : Ideal .f32) (x0 : FVec Ideal S240x576 .f32) (x1 : FVec Ideal S64x576 .f32) (p : Fin 240) (q : Fin 64) :
    maximumf (maximumf (maximumf (maximumf (broadcast S240x64 b)
          (runVec 0 0 rfl x0 x1 Cert.KernelIdeal.Gen.slices_S240x576_o0_0_S240x64 Cert.KernelIdeal.Gen.slices_S64x576_o0_0_S64x64)) (runVec 1 64 rfl x0 x1 Cert.KernelIdeal.Gen.slices_S240x576_o0_64_S240x64 Cert.KernelIdeal.Gen.slices_S64x576_o0_64_S64x64)) (runVec 2 128 rfl x0 x1 Cert.KernelIdeal.Gen.slices_S240x576_o0_128_S240x64 Cert.KernelIdeal.Gen.slices_S64x576_o0_128_S64x64)) (runVec 3 192 rfl x0 x1 Cert.KernelIdeal.Gen.slices_S240x576_o0_192_S240x64 Cert.KernelIdeal.Gen.slices_S64x576_o0_192_S64x64) (ix2 p q)
      = max (max (max (max b (Cert.MaxRuns.run start (terms (fun k => x0 (ix2 p k)) (fun k => x1 (ix2 q k))) 0)) (Cert.MaxRuns.run start (terms (fun k => x0 (ix2 p k)) (fun k => x1 (ix2 q k))) 1)) (Cert.MaxRuns.run start (terms (fun k => x0 (ix2 p k)) (fun k => x1 (ix2 q k))) 2)) (Cert.MaxRuns.run start (terms (fun k => x0 (ix2 p k)) (fun k => x1 (ix2 q k))) 3) :=
  congrArg₂ max (congrArg₂ max (congrArg₂ max (congrArg₂ max (broadcast_apply (s := S240x64) b (ix2 p q)) (runVec_apply 0 0 rfl x0 x1 Cert.KernelIdeal.Gen.slices_S240x576_o0_0_S240x64 Cert.KernelIdeal.Gen.slices_S64x576_o0_0_S64x64 p q)) (runVec_apply 1 64 rfl x0 x1 Cert.KernelIdeal.Gen.slices_S240x576_o0_64_S240x64 Cert.KernelIdeal.Gen.slices_S64x576_o0_64_S64x64 p q))
      (runVec_apply 2 128 rfl x0 x1 Cert.KernelIdeal.Gen.slices_S240x576_o0_128_S240x64 Cert.KernelIdeal.Gen.slices_S64x576_o0_128_S64x64 p q)) (runVec_apply 3 192 rfl x0 x1 Cert.KernelIdeal.Gen.slices_S240x576_o0_192_S240x64 Cert.KernelIdeal.Gen.slices_S64x576_o0_192_S64x64 p q)

/-- The running maximum after four runs at entry `(p, q)`. -/
theorem firstFour_apply (v0 : FVec Ideal S240x576 .f32) (v2 : FVec Ideal S64x576 .f32) (p : Fin 240) (q : Fin 64) :
    Cert.KernelIdeal.Gen.k0_pay4 (F := Ideal) v0 v2 (ix2 p q)
      = max (max (max (max start (Cert.MaxRuns.run start (terms (fun k => Cert.KernelIdeal.Gen.k0_pay2 (F := Ideal) v0 (ix2 p k)) (fun k => Cert.KernelIdeal.Gen.k0_pay3 (F := Ideal) v2 (ix2 q k))) 0)) (Cert.MaxRuns.run start (terms (fun k => Cert.KernelIdeal.Gen.k0_pay2 (F := Ideal) v0 (ix2 p k)) (fun k => Cert.KernelIdeal.Gen.k0_pay3 (F := Ideal) v2 (ix2 q k))) 1)) (Cert.MaxRuns.run start (terms (fun k => Cert.KernelIdeal.Gen.k0_pay2 (F := Ideal) v0 (ix2 p k)) (fun k => Cert.KernelIdeal.Gen.k0_pay3 (F := Ideal) v2 (ix2 q k))) 2)) (Cert.MaxRuns.run start (terms (fun k => Cert.KernelIdeal.Gen.k0_pay2 (F := Ideal) v0 (ix2 p k)) (fun k => Cert.KernelIdeal.Gen.k0_pay3 (F := Ideal) v2 (ix2 q k))) 3) :=
  ((congrFun (firstFour_shape v0 v2) (ix2 p q)).trans
    (nest4_apply (Scalar.ofBits (F := Ideal) .f32 0xFF800000#32) (Cert.KernelIdeal.Gen.k0_pay2 v0) (Cert.KernelIdeal.Gen.k0_pay3 v2) p q)).trans
    (by rw [scalar_ofBits])

/-- The fifth run at entry `(p, q)`. -/
theorem fifth_apply (v0 : FVec Ideal S240x576 .f32) (v2 : FVec Ideal S64x576 .f32) (p : Fin 240) (q : Fin 64) :
    Cert.KernelIdeal.Gen.k0_pay5 (F := Ideal) v0 v2 (ix2 p q) = (Cert.MaxRuns.run start (terms (fun k => Cert.KernelIdeal.Gen.k0_pay2 (F := Ideal) v0 (ix2 p k)) (fun k => Cert.KernelIdeal.Gen.k0_pay3 (F := Ideal) v2 (ix2 q k))) 4) :=
  (congrFun (fifth_shape v0 v2) (ix2 p q)).trans (runVec_apply 4 256 rfl (Cert.KernelIdeal.Gen.k0_pay2 v0) (Cert.KernelIdeal.Gen.k0_pay3 v2) Cert.KernelIdeal.Gen.slices_S240x576_o0_256_S240x64 Cert.KernelIdeal.Gen.slices_S64x576_o0_256_S64x64 p q)

/-- The second part of the body at entry `(p, q)`, from what the first part handed it. -/
theorem rest_apply (v1 : FVec Ideal S240x576 .f32) (v3 : FVec Ideal S64x576 .f32) (v40 v48 : FVec Ideal S240x64 .f32) (p : Fin 240) (q : Fin 64) :
    Cert.KernelIdeal.Gen.k0_pay1 (F := Ideal) v1 v3 v40 v48 (ix2 p q)
      = max (max (max (max (max (v40 (ix2 p q)) (v48 (ix2 p q))) (Cert.MaxRuns.run start (terms (fun k => v1 (ix2 p k)) (fun k => v3 (ix2 q k))) 5)) (Cert.MaxRuns.run start (terms (fun k => v1 (ix2 p k)) (fun k => v3 (ix2 q k))) 6)) (Cert.MaxRuns.run start (terms (fun k => v1 (ix2 p k)) (fun k => v3 (ix2 q k))) 7)) (Cert.MaxRuns.run start (terms (fun k => v1 (ix2 p k)) (fun k => v3 (ix2 q k))) 8) * factor :=
  (congrFun (rest_shape v1 v3 v40 v48) (ix2 p q)).trans
    (congrArg (· * factor) (congrArg₂ max (congrArg₂ max (congrArg₂ max (congrArg₂ max rfl (runVec_apply 5 320 rfl v1 v3 Cert.KernelIdeal.Gen.slices_S240x576_o0_320_S240x64 Cert.KernelIdeal.Gen.slices_S64x576_o0_320_S64x64 p q)) (runVec_apply 6 384 rfl v1 v3 Cert.KernelIdeal.Gen.slices_S240x576_o0_384_S240x64 Cert.KernelIdeal.Gen.slices_S64x576_o0_384_S64x64 p q))
      (runVec_apply 7 448 rfl v1 v3 Cert.KernelIdeal.Gen.slices_S240x576_o0_448_S240x64 Cert.KernelIdeal.Gen.slices_S64x576_o0_448_S64x64 p q)) (runVec_apply 8 512 rfl v1 v3 Cert.KernelIdeal.Gen.slices_S240x576_o0_512_S240x64 Cert.KernelIdeal.Gen.slices_S64x576_o0_512_S64x64 p q)))

/-- The body's value at entry `(p, q)` of the block. -/
theorem body_apply (v0 : FVec Ideal S240x576 .f32) (v2 : FVec Ideal S64x576 .f32) (p : Fin 240) (q : Fin 64) :
    Cert.KernelIdeal.Gen.k0_pay1 (F := Ideal) (Cert.KernelIdeal.Gen.k0_pay2 v0) (Cert.KernelIdeal.Gen.k0_pay3 v2) (Cert.KernelIdeal.Gen.k0_pay4 v0 v2) (Cert.KernelIdeal.Gen.k0_pay5 v0 v2) (ix2 p q)
      = Cert.MaxRuns.nested start (terms (fun k => Cert.KernelIdeal.Gen.k0_pay2 (F := Ideal) v0 (ix2 p k)) (fun k => Cert.KernelIdeal.Gen.k0_pay3 (F := Ideal) v2 (ix2 q k))) * factor := by
  refine (rest_apply _ _ _ _ p q).trans ?_
  rw [firstFour_apply, fifth_apply]
  rfl

end Cert.KernelIdeal.Payload

end
-- ==== Proof.KernelIdealRows.lean ====
/-
  Rows and pixels.

  The launch sees the patch array as a matrix of 3600 rows (one per output pixel, in row-major order of
  `(n, h, w)`) and the weights transposed; it produces the result as a matrix of 3600 rows. `rows` is that matrix as
  a function of the two; reshaped back to pixels it is the convolution of the patch array with the weights.
-/
import proofs.«117733_j9749575762016_2_alg».proof.KernelIdeal
import proofs.«117733_j9749575762016_2_alg».proof.Proof.Spec
import Idealize.ShloMosaic.Lib.ValueIdx
import Idealize.ShloMosaic.Lib.ValueLayout
import Idealize.ShloMosaic.Lib.Pipeline.Value

noncomputable section

namespace Cert.KernelIdeal.Rows

open Cert.KernelIdeal Idealize.ShloMosaic Idealize.ShloMosaic.ValueIdx
open Cert.Tropical (conv)

/-- The result matrix from the patch matrix and the transposed weights: entry `(r, f)` is the convolution entry of
    patch row `r` and transposed-weight row `f`. -/
def rows (P2 : FVec Ideal S3600x576 .f32) (KT : FVec Ideal S64x576 .f32) : FVec Ideal S3600x64 .f32 :=
  fun i => Cert.Tropical.entry (fun k => P2 (ix2 (i 0) k)) (fun k => KT (ix2 (i 1) k))

/-- Reshaped to rows, transposed, convolved row by row and reshaped back is the convolution. -/
theorem reshaped_rows_eq_conv (P4 : FVec Ideal S4x30x30x576 .f32) (K : FVec Ideal S576x64 .f32)
    (h1 : S4x30x30x576.ShapeCasts S3600x576) (h2 : S576x64.Transposes [1, 0] S64x576) (h3 : S3600x64.ShapeCasts S4x30x30x64) :
    shapeCast S4x30x30x64 (rows (shapeCast S3600x576 P4 h1) (transpose S64x576 [1, 0] K h2)) h3 = conv P4 K := by
  funext i
  obtain ⟨n, h, w, f, rfl⟩ : ∃ (n : Fin 4) (h : Fin 30) (w : Fin 30) (f : Fin 64), i = ix4 n h w f := ⟨i 0, i 1, i 2, i 3, eq_ix4 i⟩
  have hn := n.isLt; have hh := h.isLt; have hw := w.isLt
  have hr : (n.val * 30 + h.val) * 30 + w.val < 3600 := by omega
  refine (shapeCast_apply _ h3 _ (ix2 (⟨(n.val * 30 + h.val) * 30 + w.val, hr⟩ : Fin 3600) f) ?_).trans ?_
  · rw [Shape.rowMajor_val_two, Shape.rowMajor_val_four]
    rfl
  · show Cert.Tropical.entry (fun k => shapeCast S3600x576 P4 h1 (ix2 (⟨(n.val * 30 + h.val) * 30 + w.val, hr⟩ : Fin 3600) k))
        (fun k => transpose S64x576 [1, 0] K h2 (ix2 f k))
      = Cert.Tropical.entry (fun p => P4 (ix4 n h w p)) (fun p => K (ix2 p f))
    congr 1
    · funext k
      refine shapeCast_apply _ h1 _ (ix4 n h w k) ?_
      rw [Shape.rowMajor_val_two, Shape.rowMajor_val_four]
      rfl
    · funext k
      exact transpose_ix2_apply K h2 f k

end Cert.KernelIdeal.Rows

end
-- ==== Proof.KernelIdealArray.lean ====
/-
  From blocks to the whole result, at the extended reals.

  Every grid point `t` writes back rows 240·t … 240·t + 239 of the result; row `r` of the result, column `f`, is the
  convolution entry of patch row `r` and weight row `f` of the transposed matrix. The fifteen blocks tile the 3600 rows, so
  after the launch the result array is that function of the patch matrix and the transposed weights everywhere.
-/
import proofs.«117733_j9749575762016_2_alg».proof.Proof.KernelIdealFrame
import proofs.«117733_j9749575762016_2_alg».proof.Proof.KernelIdealBody
import proofs.«117733_j9749575762016_2_alg».proof.Proof.KernelIdealRows
import Idealize.ShloMosaic.Lib.Pipeline.Value

set_option Elab.async false
set_option maxRecDepth 16384

noncomputable section

namespace Cert.KernelIdeal.Around

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Tropical (start factor terms)
open Cert.KernelIdeal.Rows (rows)

variable (m : (ℓ : Loc nD τ sig) → Buf (Elt Ideal) ℓ) (ρ : Dev nD → PrngReg)

theorem zeroOffsets : (![0, 0] : Fin 2 → Nat) = fun _ => 0 := funext fun a => by fin_cases a <;> rfl

/-- The body's value at entry `j` of the block is the convolution entry of row `j 0` of the patch block and row `j 1`
    of the transposed weights. -/
theorem bodyValue_apply (x0 : Vec Ideal S240x576 .f32) (x1 : Vec Ideal S64x576 .f32) (j : S240x64.Idx) :
    bodyValue x0 x1 j = Cert.Tropical.entry (fun k => x0 (ix2 (j 0) k)) (fun k => x1 (ix2 (j 1) k)) := by
  obtain ⟨p, q, rfl⟩ : ∃ (p : Fin 240) (q : Fin 64), j = ix2 p q := ⟨j 0, j 1, eq_ix2 j⟩
  have l0 : View.ld x0 wholePatchBlock = x0 := View.ld_unit_zero zeroOffsets _ x0
  have l1 : View.ld x1 wholeWeights = x1 := View.ld_unit_zero zeroOffsets _ x1
  unfold bodyValue
  rw [l0, l1]
  refine (Payload.body_apply x0 x1 p q).trans ?_
  have e2 : k0_pay2 (F := Ideal) x0 = x0 := shapeCast_self _ _
  have e3 : k0_pay3 (F := Ideal) x1 = x1 := shapeCast_self _ _
  rw [Cert.Tropical.entry_eq_nested, e2, e3]

/-- The printed index maps over the grid: the patch block and the result block move together down the rows, nothing moves
    along the columns, the weights' block never moves. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point `t` writes back is block `t` of `rows` of the two arrays as the launch finds them. -/
theorem written_eq (c : Dev nD) (t : Fin cfg0.N) :
    (dats m 0 c).flushed 2 t = ((cfg0.win 2).blk t).view.read (Elt Ideal) (rows (atEntry m c main_v20) (atEntry m c main_v21)) := by
  show (cfg0.win 2).cut (grid0.coords t) ((dats m 0 c).after 2 t) = _
  rw [after_result]
  unfold resultBlock
  rw [View.canon_unit_zero zeroOffsets]
  obtain ⟨e0, e1, e2, e3, e4, e5⟩ := index_facts t
  funext j
  refine (bodyValue_apply _ _ j).trans ?_
  show Cert.Tropical.entry (fun k => atEntry m c main_v20 (((cfg0.win 0).blk t).view.emb (ix2 (j 0) k)))
      (fun k => atEntry m c main_v21 (((cfg0.win 1).blk t).view.emb (ix2 (j 1) k)))
    = Cert.Tropical.entry (fun k => atEntry m c main_v20 (ix2 ((((cfg0.win 2).blk t).view.emb j) 0) k))
      (fun k => atEntry m c main_v21 (ix2 ((((cfg0.win 2).blk t).view.emb j) 1) k))
  have h0 : ∀ k : Fin 576, ((cfg0.win 0).blk t).view.emb (ix2 (j 0) k) = ix2 ((((cfg0.win 2).blk t).view.emb j) 0) k := fun k => by
    funext a; apply Fin.ext
    match a with
    | ⟨0, _⟩ => show win0_0.index t (0 : Fin 2) * 240 + 1 * (j 0).val = win0_2.index t (0 : Fin 2) * 240 + 1 * (j 0).val; omega
    | ⟨1, _⟩ => show win0_0.index t (1 : Fin 2) * 576 + 1 * k.val = k.val; omega
  have h1 : ∀ k : Fin 576, ((cfg0.win 1).blk t).view.emb (ix2 (j 1) k) = ix2 ((((cfg0.win 2).blk t).view.emb j) 1) k := fun k => by
    funext a; apply Fin.ext
    match a with
    | ⟨0, _⟩ => show win0_1.index t (0 : Fin 2) * 64 + 1 * (j 1).val = win0_2.index t (1 : Fin 2) * 64 + 1 * (j 1).val; omega
    | ⟨1, _⟩ => show win0_1.index t (1 : Fin 2) * 576 + 1 * k.val = k.val; omega
  exact congrArg₂ Cert.Tropical.entry (funext fun k => congrArg (atEntry m c main_v20) (h0 k))
    (funext fun k => congrArg (atEntry m c main_v21) (h1 k))

/-- An index of the result is in point `t`'s block iff each coordinate is in the block's range on its axis. -/
theorem mem_block (t : Fin cfg0.N) (i : S3600x64.Idx) :
    i ∈ ((cfg0.win 2).blk t).view.set ↔ ∀ a : Fin 2, win0_2.index t a * S240x64.size a ≤ (i a).val ∧ (i a).val < win0_2.index t a * S240x64.size a + S240x64.size a := by
  show i ∈ ((View.whole main_v22).slice (win0_2.rect t)).set ↔ _
  rw [View.set_slice_whole, Rect.mem_set_unit]
  exact Iff.rfl

/-- Row `r` lies in the block of point `r / 240`: the fifteen blocks cover the result. -/
theorem blocks_cover (i : S3600x64.Idx) : ∃ t : Fin cfg0.N, (cfg0.win 2).flush t = true ∧ i ∈ ((cfg0.win 2).blk t).view.set := by
  have hi0 : (i 0).val < 3600 := (i 0).isLt
  have hi1 : (i 1).val < 64 := (i 1).isLt
  have hN : cfg0.N = 15 := N_0
  refine ⟨⟨(i 0).val / 240, by rw [hN]; omega⟩, flush0_2 _, ?_⟩
  rw [mem_block]
  obtain ⟨e0, e1, e2, e3, e4, e5⟩ := index_facts ⟨(i 0).val / 240, by rw [hN]; omega⟩
  intro a
  match a with
  | ⟨0, _⟩ =>
    show win0_2.index _ (0 : Fin 2) * 240 ≤ (i 0).val ∧ (i 0).val < win0_2.index _ (0 : Fin 2) * 240 + 240
    rw [e5]; show (i 0).val / 240 * 240 ≤ (i 0).val ∧ (i 0).val < (i 0).val / 240 * 240 + 240; omega
  | ⟨1, _⟩ =>
    show win0_2.index _ (1 : Fin 2) * 64 ≤ (i 1).val ∧ (i 1).val < win0_2.index _ (1 : Fin 2) * 64 + 64
    rw [e4]; omega

/-- The result array after the launch. -/
theorem result_rows (c : Dev nD) : (dats m 0 c).arrAt 2 cfg0.N = rows (atEntry m c main_v20) (atEntry m c main_v21) :=
  (dats m 0 c).arrAt_eq_of_cover 2 (rows (atEntry m c main_v20) (atEntry m c main_v21)) (fun t _ => written_eq m c t) blocks_cover

end Cert.KernelIdeal.Around

end
-- ==== Proof.KernelIdealHost.lean ====
/-
  The lines of the kernel program around its launch, at the extended reals.

  Before the launch the program builds the patch array from the image — nine windows of the image, each shifted by one
  of the 3 × 3 offsets, stacked along a new axis and merged with the channels into 576 columns —, reshapes it to 3600
  rows, and transposes the weights; after the launch it reshapes the 3600 × 64 result to 4 × 30 × 30 × 64. The patch
  array is kept as one closed term: the reference builds it by the same lines.
-/
import proofs.«117733_j9749575762016_2_alg».proof.Proof.KernelIdealFrame
import Idealize.ShloMosaic.Lib.StableHlo.Run
import Idealize.ShloMosaic.PureOps.Ideal
import Idealize.ShloMosaic.Lib.Pipeline.Value

set_option Elab.async false
set_option maxRecDepth 16384

noncomputable section

namespace Cert.KernelIdeal.Around

open Cert.KernelIdeal Cert.KernelIdeal.Gen
open Idealize.ShloMosaic Idealize.ShloMosaic.TcCoe
open Idealize.SL Idealize.SL.Sem Idealize.ShloMosaic.StableHlo
open Idealize.ShloMosaic.Pipeline (Dat Cfg Window)

variable (m : (ℓ : Loc nD τ sig) → Buf (Elt Ideal) ℓ) (ρ : Dev nD → PrngReg)

/-- The patch array as the program builds it from the image. -/
def patches (x : FVec Ideal S4x32x32x64 .f32) : FVec Ideal S4x30x30x576 .f32 :=
  shapeCast S4x30x30x576 (concatenate S4x30x30x9x64 3 [⟨S4x30x30x1x64, broadcastInDim S4x30x30x1x64 ![0, 1, 2, 4] Cert.KernelIdeal.Gen.bcast_S4x30x30x64_S4x30x30x1x64_0_1_2_4 (extractStridedSlice S4x30x30x64 ![0, 0, 0, 0] x Cert.KernelIdeal.Gen.slices_S4x32x32x64_S4x30x30x64_0_0_0_0)⟩,
    ⟨S4x30x30x1x64, broadcastInDim S4x30x30x1x64 ![0, 1, 2, 4] Cert.KernelIdeal.Gen.bcast_S4x30x30x64_S4x30x30x1x64_0_1_2_4 (extractStridedSlice S4x30x30x64 ![0, 0, 1, 0] x Cert.KernelIdeal.Gen.slices_S4x32x32x64_S4x30x30x64_0_0_1_0)⟩,
    ⟨S4x30x30x1x64, broadcastInDim S4x30x30x1x64 ![0, 1, 2, 4] Cert.KernelIdeal.Gen.bcast_S4x30x30x64_S4x30x30x1x64_0_1_2_4 (extractStridedSlice S4x30x30x64 ![0, 0, 2, 0] x Cert.KernelIdeal.Gen.slices_S4x32x32x64_S4x30x30x64_0_0_2_0)⟩,
    ⟨S4x30x30x1x64, broadcastInDim S4x30x30x1x64 ![0, 1, 2, 4] Cert.KernelIdeal.Gen.bcast_S4x30x30x64_S4x30x30x1x64_0_1_2_4 (extractStridedSlice S4x30x30x64 ![0, 1, 0, 0] x Cert.KernelIdeal.Gen.slices_S4x32x32x64_S4x30x30x64_0_1_0_0)⟩,
    ⟨S4x30x30x1x64, broadcastInDim S4x30x30x1x64 ![0, 1, 2, 4] Cert.KernelIdeal.Gen.bcast_S4x30x30x64_S4x30x30x1x64_0_1_2_4 (extractStridedSlice S4x30x30x64 ![0, 1, 1, 0] x Cert.KernelIdeal.Gen.slices_S4x32x32x64_S4x30x30x64_0_1_1_0)⟩,
    ⟨S4x30x30x1x64, broadcastInDim S4x30x30x1x64 ![0, 1, 2, 4] Cert.KernelIdeal.Gen.bcast_S4x30x30x64_S4x30x30x1x64_0_1_2_4 (extractStridedSlice S4x30x30x64 ![0, 1, 2, 0] x Cert.KernelIdeal.Gen.slices_S4x32x32x64_S4x30x30x64_0_1_2_0)⟩,
    ⟨S4x30x30x1x64, broadcastInDim S4x30x30x1x64 ![0, 1, 2, 4] Cert.KernelIdeal.Gen.bcast_S4x30x30x64_S4x30x30x1x64_0_1_2_4 (extractStridedSlice S4x30x30x64 ![0, 2, 0, 0] x Cert.KernelIdeal.Gen.slices_S4x32x32x64_S4x30x30x64_0_2_0_0)⟩,
    ⟨S4x30x30x1x64, broadcastInDim S4x30x30x1x64 ![0, 1, 2, 4] Cert.KernelIdeal.Gen.bcast_S4x30x30x64_S4x30x30x1x64_0_1_2_4 (extractStridedSlice S4x30x30x64 ![0, 2, 1, 0] x Cert.KernelIdeal.Gen.slices_S4x32x32x64_S4x30x30x64_0_2_1_0)⟩,
    ⟨S4x30x30x1x64, broadcastInDim S4x30x30x1x64 ![0, 1, 2, 4] Cert.KernelIdeal.Gen.bcast_S4x30x30x64_S4x30x30x1x64_0_1_2_4 (extractStridedSlice S4x30x30x64 ![0, 2, 2, 0] x Cert.KernelIdeal.Gen.slices_S4x32x32x64_S4x30x30x64_0_2_2_0)⟩] Cert.KernelIdeal.Gen.concatenates_S4x30x30x1x64_S4x30x30x1x64_S4x30x30x1x64_S4x30x30x1x64_S4x30x30x1x64_S4x30x30x1x64_S4x30x30x1x64_S4x30x30x1x64_S4x30x30x1x64_S4x30x30x9x64_d3) Cert.KernelIdeal.Gen.shapeCasts_S4x30x30x9x64_S4x30x30x576

/-- The patch matrix the launch starts from. -/
theorem entry_patches (c : Dev nD) :
    (atEntry m c main_v20 : S3600x576.Idx → Ideal .f32)
      = shapeCast S3600x576 (patches (m ((c : Thread nD τ).loc main_arg0))) Cert.KernelIdeal.Gen.shapeCasts_S4x30x30x576_S3600x576 := by
  show StableHlo.after hostOps0 (fun b => m (c, b)) (Proc.devRef .tc main_v20) = _
  after_results <;> rfl

/-- The transposed weights the launch starts from. -/
theorem entry_weightsT (c : Dev nD) :
    (atEntry m c main_v21 : S64x576.Idx → Ideal .f32)
      = transpose S64x576 [1, 0] (m ((c : Thread nD τ).loc main_arg1)) Cert.KernelIdeal.Gen.transposes_S576x64_S64x576_1_0 := by
  show StableHlo.after hostOps0 (fun b => m (c, b)) (Proc.devRef .tc main_v21) = _
  after_results <;> rfl

/-- The program's result after the final reshape. -/
theorem end_result (c : Dev nD) :
    (Pipeline.afterTail₀ cfgs (dats m) 0 (entry m) [hostOps1] c main_v23 : S4x30x30x64.Idx → Ideal .f32)
      = shapeCast S4x30x30x64 ((dats m 0 c).arrAt 2 cfg0.N) Cert.KernelIdeal.Gen.shapeCasts_S3600x64_S4x30x30x64 := by
  unfold Pipeline.afterTail₀
  show StableHlo.after hostOps1 _ (Proc.devRef .tc main_v23) = _
  after_results
  have e := Pipeline.withArrays_arr spec0 launch0.win.arr_inj c (entry m c) (fun w => (dats m 0 c).arrAt w cfg0.N) (2 : Fin 3)
  exact congrArg (fun A => shapeCast S4x30x30x64 A Cert.KernelIdeal.Gen.shapeCasts_S3600x64_S4x30x30x64) e

end Cert.KernelIdeal.Around

end
-- ==== Proof.KernelIdealValue.lean ====
/-
  The kernel program's run with its result named, at the extended reals.

  After the launch the result rows are the convolution entries of the patch rows and the transposed weights' rows; the
  final reshape reads row `(n·30 + h)·30 + w` as pixel `(n, h, w)`; the patch matrix is the patch array reshaped and the
  transposed weights the weights transposed. So the program ends with its result array at the convolution of the patch
  array with the weights, and with its two arguments as they were.
-/
import proofs.«117733_j9749575762016_2_alg».proof.Proof.KernelIdealArray
import proofs.«117733_j9749575762016_2_alg».proof.Proof.KernelIdealHost

set_option Elab.async false
set_option maxRecDepth 16384

noncomputable section

namespace Cert.KernelIdeal.Around

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The result array at the end of the program. -/
theorem result_eq_conv (c : Dev nD) :
    (Pipeline.afterTail₀ cfgs (dats m) 0 (entry m) [hostOps1] c main_v23 : S4x30x30x64.Idx → Ideal .f32)
      = Cert.Tropical.conv (patches (m ((c : Thread nD τ).loc main_arg0))) (m ((c : Thread nD τ).loc main_arg1)) := by
  rw [end_result, result_rows, entry_patches, entry_weightsT]
  exact Cert.KernelIdeal.Rows.reshaped_rows_eq_conv _ _ _ _ _

/-- Every weakly fair execution of the kernel program terminates without a fault, with the result at the convolution of the
    patch array with the weights and both arguments unchanged. -/
theorem value_run : θ_run defs (onTc (τ := τ) (main (F := Ideal))) ⟨m, fun _ => 0, ρ⟩ (fun r => ∀ c : Dev nD,
      r.2.mem ((c.tc : Thread nD τ).loc main_v23)
        = Cert.Tropical.conv (patches (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v23 (Pipeline.mem_restRefs_of main_v23 (by decide) (by decide))).trans (result_eq_conv m c),
     ((h c).2 main_arg0 (Pipeline.mem_restRefs_of main_arg0 (by decide) (by decide))).trans (end_image m (dats m) c),
     ((h c).2 main_arg1 (Pipeline.mem_restRefs_of main_arg1 (by decide) (by decide))).trans (end_weights m (dats m) c)⟩) (run_main m ρ)

end Cert.KernelIdeal.Around

end
-- ==== Proof.ReferenceValue.lean ====
/-
  The reference program's result as the same function, at the extended reals.

  The reference adds the weights, broadcast over the pixels, to the patch array, broadcast over the features, takes the
  maximum over the 576 offsets-and-channels from the starting value, and multiplies by the constant: at output index
  `(n, h, w, f)` this is the convolution entry of the patch array at pixel `(n, h, w)` and column `f` of the weights.
-/
import proofs.«117733_j9749575762016_2_alg».proof.Proof.Gen.ReferenceIdeal.Read
import proofs.«117733_j9749575762016_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx
open Cert.Tropical (start factor terms conv)

theorem reduces_offsets : S4x30x30x576x64.Reduces [3] S4x30x30x64 := by decide

/-- The sum the maximum is taken of, read at `(n, h, w, k, f)`. -/
theorem summand_apply (x0 : FVec Ideal S4x32x32x64 .f32) (x1 : FVec Ideal S576x64 .f32)
    (n : Fin 4) (h : Fin 30) (w : Fin 30) (k : Fin 576) (f : Fin 64) :
    Read.val_main_v24 (F := Ideal) x0 x1 (ix5 n h w k f) = Read.val_main_v19 (F := Ideal) x0 (ix4 n h w k) + x1 (ix2 k f) := by
  rw [Read.val_main_v24_apply, Read.val_main_v22_apply, Read.val_main_v20_apply, Read.val_main_v23_apply, Read.val_main_v21_apply]
  show Read.val_main_v19 (F := Ideal) x0 _ + x1 _ = _
  congr 1
  exact congrArg x1 (funext fun a => by fin_cases a <;> rfl)

/-- The reference's last stage is the convolution of its patch array with the weights. -/
theorem result_eq_conv (x0 : FVec Ideal S4x32x32x64 .f32) (x1 : FVec Ideal S576x64 .f32) :
    Read.val_main_v27 (F := Ideal) x0 x1 = conv (Read.val_main_v19 (F := Ideal) x0) x1 := by
  funext i
  obtain ⟨n, h, w, f, rfl⟩ : ∃ (n : Fin 4) (h : Fin 30) (w : Fin 30) (f : Fin 64), i = ix4 n h w f := ⟨i 0, i 1, i 2, i 3, eq_ix4 i⟩
  rw [Read.val_main_v27_apply, Read.val_main_v26_apply, Read.val_main_cst_0_apply]
  unfold Read.val_main_v25
  rw [Host.reduce_eq_fold_single FloatOps.maximumf _ _ _ reduces_offsets _ _]
  show (Finset.univ : Finset (Fin 576)).fold max start (Read.val_main_v24 (F := Ideal) x0 x1 ∘ reduces_offsets.lift (ix4 n h w f)) * factor
      = Cert.Tropical.entry (fun p => Read.val_main_v19 (F := Ideal) x0 (ix4 n h w p)) (fun p => x1 (ix2 p f))
  unfold Cert.Tropical.entry
  refine congrArg (· * factor) (congrArg (fun g => (Finset.univ : Finset (Fin 576)).fold max start g) (funext fun (k : Fin 576) => ?_))
  have hk : reduces_offsets.lift (ix4 n h w f) k = ix5 n h w k f := funext fun a => by fin_cases a <;> rfl
  exact (congrArg (Read.val_main_v24 (F := Ideal) x0 x1) hk).trans (summand_apply x0 x1 n h w k f)

end Cert.ReferenceIdeal.RefValue

end
-- ==== Proof.lean ====
/-
  Max-plus ("tropical") convolution: a tiled kernel against its reference, on the extended reals.

  Both programs lay the 4 × 32 × 32 × 64 image out as a patch array `P (n, h, w, p)`, `p` ranging over the 3 · 3 · 64
  offsets-and-channels of the window at output pixel `(n, h, w)`, by the same lines. The reference takes, for every
  pixel and output feature `f`, the maximum over all 576 `p` of `P (n, h, w, p) + K (p, f)`, starting from minus infinity,
  and multiplies by one. The kernel walks the 3600 pixels in fifteen blocks of 240 rows; for each row and feature it takes
  the maximum over each of the nine runs of 64 consecutive `p` separately, every one again from minus infinity, folds the
  nine into a running maximum that starts at minus infinity, and multiplies by one. A maximum of finitely many terms does not
  depend on how the terms are grouped, and repeating the starting value changes nothing because `max` is idempotent
  (Proof/MaxRuns.lean); the sums are the same sums, and the two constants are the same words in the same places, so the two
  results agree entry by entry (Proof/Spec.lean states the common function). Nothing here needs the inputs to be finite.

  The kernel's run — it terminates, faults nowhere, leaves its arguments alone, and ends with each block of rows at what
  its grid point wrote — is Proof/KernelFrame.lean (the printed program) and Proof/KernelIdealFrame.lean (the same text read
  at the extended reals); Proof/KernelIdealPayload.lean, KernelIdealBody.lean, KernelIdealArray.lean, KernelIdealHost.lean
  and KernelIdealValue.lean read the body's arithmetic at an entry, assemble the blocks into the result array and carry it
  through the lines around the launch; Proof/ReferenceValue.lean reads the reference's last stage as the same function.
-/
import proofs.«117733_j9749575762016_2_alg».proof.Defs
import proofs.«117733_j9749575762016_2_alg».proof.Proof.Gen.Kernel
import proofs.«117733_j9749575762016_2_alg».proof.Proof.Gen.KernelIdeal
import proofs.«117733_j9749575762016_2_alg».proof.Proof.Gen.ReferenceIdeal
import proofs.«117733_j9749575762016_2_alg».proof.Proof.Gen.Pre_finite_inputs
import proofs.«117733_j9749575762016_2_alg».proof.Proof.Gen.ReferenceIdeal.Run
import proofs.«117733_j9749575762016_2_alg».proof.Proof.Gen.ReferenceIdeal.Read
import proofs.«117733_j9749575762016_2_alg».proof.Proof.KernelFrame
import proofs.«117733_j9749575762016_2_alg».proof.Proof.KernelIdealValue
import proofs.«117733_j9749575762016_2_alg».proof.Proof.ReferenceValue
import Idealize.ShloMosaic.Adequacy
import Idealize.ShloMosaic.Init

set_option Elab.async false

noncomputable section

namespace Cert.Proof

open Idealize.ShloMosaic Idealize.SL.Sem

/-- The printed kernel program runs to its end and leaves its arguments as given. -/
theorem frame_kernel : Cert.frame_Kernel (hKernel := Cert.Kernel.Gen.facts) (hPre_finite_inputs := Cert.Pre_finite_inputs.Gen.facts) :=
  fun m ρ _ => Cert.Kernel.Around.frame m ρ

/-- So does the same program read at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Around.frame m ρ

/-- And the reference: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two programs build the patch array by the same lines. -/
theorem patches_same (x : FVec Ideal Cert.KernelIdeal.S4x32x32x64 .f32) :
    Cert.ReferenceIdeal.Read.val_main_v19 (F := Ideal) x = Cert.KernelIdeal.Around.patches x := rfl

/-- From memories that agree on the image and the weights both programs end with the convolution of the patch array with the
    weights in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Tropical.conv
      (Cert.KernelIdeal.Around.patches (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.Around.value_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v27_eq _ _).trans ?_
  rw [Cert.ReferenceIdeal.RefValue.result_eq_conv, (hagree c).1, (hagree c).2, patches_same]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
